-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S16384x512 : Shape := ⟨2, ![16384, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S2048x512 .f32) (main_arg1 : FVec F S16384x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S2048x512 : Shape := ⟨2, ![2048, 512]⟩
abbrev S16384x512 : Shape := ⟨2, ![16384, 512]⟩
abbrev S1024x2048 : Shape := ⟨2, ![1024, 2048]⟩
abbrev S1024x512 : Shape := ⟨2, ![1024, 512]⟩
abbrev S128x2048 : Shape := ⟨2, ![128, 2048]⟩
abbrev S2048 : Shape := ⟨1, ![2048]⟩
abbrev S2048x1 : Shape := ⟨2, ![2048, 1]⟩
abbrev S64x16x2048 : Shape := ⟨3, ![64, 16, 2048]⟩
abbrev S64x2048 : Shape := ⟨2, ![64, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S16384x512, .f32⟩
  | .hbm, ⟨2, _⟩ => ⟨S1024x2048, .f32⟩
  | .local _ .vmem, ⟨0, _⟩ => ⟨S2048x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S128x2048, .f32⟩
  | .local _ .vmem, ⟨6, _⟩ => ⟨S128x2048, .f32⟩
  | .local _ .vmem, ⟨7, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x2048_S64x16x2048 : S1024x2048.ShapeCasts S64x16x2048
  reduces_S64x16x2048_S64x2048 : S64x16x2048.Reduces [1] S64x2048
  inb_S128x2048_S64x2048_0_0 : ∀ a, (![0, 0] : Fin 2 → Nat) a + S64x2048.size a ≤ S128x2048.size a
  h_S64x2048 : 0 < S64x2048.numel
  inb_S128x2048_S64x2048_64_0 : ∀ a, (![64, 0] : Fin 2 → Nat) a + S64x2048.size a ≤ S128x2048.size a
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .f32 = 32 ∨ (Rect.block (s := S2048x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S1024x2048.size a
  hwx0_3 : ∀ i : grid0.Coords, EltTy.bits .f32 = 32 ∨ (Rect.block (s := S1024x2048) S128x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S16384x512 : Shape := ⟨2, ![16384, 512]⟩
abbrev S_ : Shape := ⟨0, ![]⟩
abbrev S2048 : Shape := ⟨1, ![2048]⟩
abbrev S2048x1 : Shape := ⟨2, ![2048, 1]⟩
abbrev S512x2048 : Shape := ⟨2, ![512, 2048]⟩
abbrev S16384x2048 : Shape := ⟨2, ![16384, 2048]⟩
abbrev S1024x16x2048 : Shape := ⟨3, ![1024, 16, 2048]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S16384x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x512, .f32⟩
  | .hbm, ⟨12, _⟩ => ⟨S2048x512, .f32⟩
  | .hbm, ⟨13, _⟩ => ⟨S512x2048, .f32⟩
  | .hbm, ⟨14, _⟩ => ⟨S16384x2048, .f32⟩
  | .hbm, ⟨15, _⟩ => ⟨S1024x16x2048, .f32⟩
  | .hbm, ⟨16, _⟩ => ⟨S_, .f32⟩
  | .hbm, ⟨17, _⟩ => ⟨S1024x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  transposes_S2048x512_S512x2048_1_0 : S2048x512.Transposes [1, 0] S512x2048
  shapeCasts_S16384x2048_S1024x16x2048 : S16384x2048.ShapeCasts S1024x16x2048
  reducesTo_S1024x16x2048_S1024x2048_d1 : S1024x16x2048.ReducesTo [1] S1024x2048
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.KBSetup.lean ====
/-
  What the two cases of the body and the launch share: the arrays as the region finds them, each window's block at a
  grid point, the one branch condition decided over the grid (it holds at the first point only), the staging and
  scratch memrefs, and the invariant's two shapes (the scratch at anything before the first point).
-/
import proofs.«133022_g73735998537873_cont_9to1_m_286_39_alg».proof.Proof.Gen.Kernel.Launch
import proofs.«133022_g73735998537873_cont_9to1_m_286_39_alg».proof.Proof.Gen.Kernel.Skeleton
import proofs.«133022_g73735998537873_cont_9to1_m_286_39_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond0 (i : grid0.Coords) : Prop := (Scalar.cmpi .ne (Scalar.extui (Scalar.cmpi .eq (BitVec.ofNat 32 (i 0).val) 0#32)) 0#32) = 1#1
/-- It holds at the first point and at no other. -/
theorem hcond0 : ∀ t : Fin cfg0.N, cond0 (grid0.coords t) ↔ t.val = 0 :=
  (by decide +kernel : ∀ t : Fin grid0.N, cond0 (grid0.coords t) ↔ t.val = 0)

/-- No window is idle at any point. -/
theorem live0 : ∀ (w : Fin cfg0.W) (i : grid0.Coords), cfg0.idle w i = false := fun _ _ => rfl

/-- Each window's current staging memref at point `t`, and its wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x2048 .f32 := win0_3.stage (cfg0.slots t 3)
abbrev hs3 (t : Fin cfg0.N) : (ms3 t).IsWhole := hstage0_3 ((cfg0.slots t 3).cast nbuf0_3)
/-- The scratch that carries the normalized queries from the first point to the later ones. -/
abbrev scM : Memref sig .tc .vmem S2048x512 .bf16 := Memref.whole cc0_scratch0
abbrev VS : View sig .tc .vmem S2048x512 .bf16 := (scM).view
/-- One staging buffer of the output window, through which its contents are stated. -/
abbrev VO : View sig .tc .vmem S128x2048 .f32 := (Memref.whole cc0_stg3_0 : Memref sig .tc .vmem S128x2048 .f32).view

/-- The scoped buffers that are no staging buffer: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.KBRunA.lean ====
/-
  The body at the FIRST grid point (the branch taken): it reads the whole query block, writes the row-normalized
  queries into the scratch, reads them back, and stores the two halves of the output block, each the per-class maximum
  of the products of a half of the proxy rows with the normalized queries. The pieces each buffer ends with are found
  by running the body symbolically.
-/
import proofs.«133022_g73735998537873_cont_9to1_m_286_39_alg».proof.Proof.KBSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the scratch, as pieces (last first), at a point
    where the branch is taken, with the proof that on whole memrefs — the three inputs at their contents, the output
    and the scratch at anything — the body runs to the continuation holding the inputs as they were and the output and
    the scratch with those pieces written. -/
noncomputable def kernelRunA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) :
    Σ' (L3 : List (View.Piece (Elt F) S128x2048 .f32)), { LS : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__fused_kernel i arg1 harg1 arg2 harg2 arg3 harg3 arg4 harg4 arg5 harg5) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg1.eq_unread hf0; obtain rfl := harg2.eq_unread hf1; obtain rfl := harg3.eq_unread hf2
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Hand

end
-- ==== Proof.KBRunB.lean ====
/-
  The body at a LATER grid point (the branch not taken): the scratch still holds the normalized queries the first
  point wrote; the body reads them and stores the two halves of the output block as at the first point. The scratch is
  handed back as it was found.
-/
import proofs.«133022_g73735998537873_cont_9to1_m_286_39_alg».proof.Proof.KBRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref, as pieces (last first), at a point where the branch is
    not taken, with the proof that on whole memrefs — the three inputs and the scratch at their contents, the output at
    anything — the body runs to the continuation holding the inputs and the scratch as they were and the output with
    those pieces written. -/
noncomputable def kernelRunB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : ¬cond0 i)
    (x0 : Vec F S2048x512 .f32) (x1 : Vec F S1024x512 .f32) (x2 : Vec F S1024x512 .f32) (xs : Vec F S2048x512 .bf16) :
    { L3 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS

end Cert.Kernel.Hand

end
-- ==== Proof.KBBody.lean ====
/-
  What the output block and the scratch hold after the body at each grid point, the proof data of the pipeline, and the
  body obligation at a generic point: at the first point the body fills the scratch with the normalized queries; at
  every later point it finds them there and leaves them; at every point it overwrites the whole output block.
-/
import proofs.«133022_g73735998537873_cont_9to1_m_286_39_alg».proof.Proof.KBRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the stores into the output block tile it (two half-blocks of 64 rows). -/
theorem coverA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) (y : S128x2048.Idx) :
    ∃ pc ∈ (kernelRunA c i arg1 harg1 arg2 harg2 arg3 harg3 arg4 harg4 arg5 harg5 hc0 x0 x1 x2).1, y ∈ pc.1.set :=
  View.cover_of_tiledL (kernelRunA c i arg1 harg1 arg2 harg2 arg3 harg3 arg4 harg4 arg5 harg5 hc0 x0 x1 x2).1 S64x2048.size (by sl_kernel_rfl) y

/-- What the first point leaves in the output's staging buffer: its pieces read back. -/
def outA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) : Vec F S128x2048 .f32 :=
  VO.read (Elt F) (VO.writes (Elt F) VO.junk (kernelRunA c i arg1 harg1 arg2 harg2 arg3 harg3 arg4 harg4 arg5 harg5 hc0 x0 x1 x2).1)

/-- At the first point the one store into the scratch covers it. -/
theorem scoverA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) (y : S2048x512.Idx) :
    ∃ pc ∈ (kernelRunA c i arg1 harg1 arg2 harg2 arg3 harg3 arg4 harg4 arg5 harg5 hc0 x0 x1 x2).2.1, y ∈ pc.1.set :=
  View.cover_of_tiledL (kernelRunA c i arg1 harg1 arg2 harg2 arg3 harg3 arg4 harg4 arg5 harg5 hc0 x0 x1 x2).2.1 S2048x512.size (by sl_kernel_rfl) y

/-- What the first point leaves in the scratch: its piece read back. -/
def soutA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) : Vec F S2048x512 .bf16 :=
  VS.read (Elt F) (VS.writes (Elt F) VS.junk (kernelRunA c i arg1 harg1 arg2 harg2 arg3 harg3 arg4 harg4 arg5 harg5 hc0 x0 x1 x2).2.1)

/-- At a later point the stores into the output block tile it likewise. -/
theorem coverB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : ¬cond0 i)
    (x0 : Vec F S2048x512 .f32) (x1 : Vec F S1024x512 .f32) (x2 : Vec F S1024x512 .f32) (xs : Vec F S2048x512 .bf16) (y : S128x2048.Idx) :
    ∃ pc ∈ (kernelRunB c i arg1 harg1 arg2 harg2 arg3 harg3 arg4 harg4 arg5 harg5 hc0 x0 x1 x2 xs).1, y ∈ pc.1.set :=
  View.cover_of_tiledL (kernelRunB c i arg1 harg1 arg2 harg2 arg3 harg3 arg4 harg4 arg5 harg5 hc0 x0 x1 x2 xs).1 S64x2048.size (by sl_kernel_rfl) y

/-- What a later point leaves in the output's staging buffer, the scratch holding `xs`. -/
def outB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : ¬cond0 i)
    (x0 : Vec F S2048x512 .f32) (x1 : Vec F S1024x512 .f32) (x2 : Vec F S1024x512 .f32) (xs : Vec F S2048x512 .bf16) : Vec F S128x2048 .f32 :=
  VO.read (Elt F) (VO.writes (Elt F) VO.junk (kernelRunB c i arg1 harg1 arg2 harg2 arg3 harg3 arg4 harg4 arg5 harg5 hc0 x0 x1 x2 xs).1)

/-- The first grid point. -/
abbrev p0 : Fin cfg0.N := ⟨0, by rw [show cfg0.N = 8 from N_0]; decide⟩

/-- The scratch's contents from the first point on: what the first point stored there. -/
def S0 (c : Dev nD) : Vec F S2048x512 .bf16 :=
  soutA c (grid0.coords p0) (ms0 p0) (hs0 p0) (ms1 p0) (hs1 p0) (ms2 p0) (hs2 p0) (ms3 p0) (hs3 p0) scM (Memref.isWhole_whole _) ((hcond0 p0).mpr rfl) (iblk m c 0 p0) (iblk m c 1 p0) (iblk m c 2 p0)

/-- The output block's staging buffer after the body at point `t`. -/
def outAt (c : Dev nD) (t : Fin cfg0.N) : Vec F S128x2048 .f32 :=
  if h : t.val = 0 then outA c (grid0.coords t) (ms0 t) (hs0 t) (ms1 t) (hs1 t) (ms2 t) (hs2 t) (ms3 t) (hs3 t) scM (Memref.isWhole_whole _) ((hcond0 t).mpr h) (iblk m c 0 t) (iblk m c 1 t) (iblk m c 2 t)
  else outB c (grid0.coords t) (ms0 t) (hs0 t) (ms1 t) (hs1 t) (ms2 t) (hs2 t) (ms3 t) (hs3 t) scM (Memref.isWhole_whole _) (fun hc => h ((hcond0 t).mp hc)) (iblk m c 0 t) (iblk m c 1 t) (iblk m c 2 t) (S0 m c)

/-- The region invariant before position `n`: before the first point the scratch at anything, afterwards the scratch at
    the normalized queries. -/
def PhiS (c : Dev nD) : ℕ → sProp 𝕄
  | 0 => iprop(∃ d, owns (c : Thread nD τ) scM fullShare d)
  | _ + 1 => owns (c : Thread nD τ) scM fullShare (S0 m c)

theorem PhiS_pos (c : Dev nD) (n : ℕ) (hz : n ≠ 0) : PhiS m c n = owns (c : Thread nD τ) scM fullShare (S0 m c) := by
  cases n with
  | zero => exact absurd rfl hz
  | succ n => rfl

/-- The proof data of the pipeline on core `c`: the arrays as the region finds them; after the body at point `t` each
    input's buffer at its block and the output's at `outAt`; the invariant `PhiS`; nothing owed; the query array and
    the result held whole, the proxy bank's two windows each at half its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; at the first point the scratch holds anything and
    is left at the normalized queries, at a later point it holds them and is left as found; the output block is
    overwritten whole. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) from rfl, show PhiS m c (t.val + 1) = owns (c : Thread nD τ) scM fullShare (S0 m c) from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).Φ t.castSucc = PhiS m c t.val from rfl]
  by_cases hz : t.val = 0
  · obtain rfl : t = p0 := Fin.ext hz
    rw [show outAt m c p0 = outA c (grid0.coords p0) (ms0 p0) (hs0 p0) (ms1 p0) (hs1 p0) (ms2 p0) (hs2 p0) (ms3 p0) (hs3 p0) scM (Memref.isWhole_whole _) ((hcond0 p0).mpr rfl) (iblk m c 0 p0) (iblk m c 1 p0) (iblk m c 2 p0) from dif_pos rfl]
    rw [show PhiS m c (p0 : Fin cfg0.N).val = iprop(∃ d, owns (c : Thread nD τ) scM fullShare d) from rfl]
    unfold S0 soutA outA
    iintro ⟨HS, Ho, ⟨%d0, H0⟩, ⟨%d1, H1⟩, ⟨%d2, H2⟩, ⟨%d3, H3⟩⟩
    iapply ((kernelRunA c (grid0.coords p0) _ _ _ _ _ _ _ _ _ _ ((hcond0 p0).mpr rfl) (iblk m c 0 p0) (iblk m c 1 p0) (iblk m c 2 p0)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS]
    · unfold owns; iexists _; isplitr
      swap; · iexact HS
      ipureintro; exact View.read_writes_of_cover _ _ _ _ _ (scoverA c _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · rw [show outAt m c t = outB c (grid0.coords t) (ms0 t) (hs0 t) (ms1 t) (hs1 t) (ms2 t) (hs2 t) (ms3 t) (hs3 t) scM (Memref.isWhole_whole _) (fun hc => hz ((hcond0 t).mp hc)) (iblk m c 0 t) (iblk m c 1 t) (iblk m c 2 t) (S0 m c) from dif_neg hz]
    rw [PhiS_pos m c _ hz]
    unfold outB
    iintro ⟨HS, Ho, ⟨%d0, H0⟩, ⟨%d1, H1⟩, ⟨%d2, H2⟩, ⟨%d3, H3⟩⟩
    iapply ((kernelRunB c (grid0.coords t) _ _ _ _ _ _ _ _ _ _ (fun hc => hz ((hcond0 t).mp hc)) (iblk m c 0 t) (iblk m c 1 t) (iblk m c 2 t) (S0 m c)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS]; · iexact HS
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBLaunch.lean ====
/-
  The launch: the region run from any memory with zero counters. The proxy bank is handed to the kernel through two
  windows, so its buffer's full share is dealt between them, half each (both only read it); the query array and the
  result are held whole. The scratch enters the invariant at anything and leaves it forgotten. Every weakly fair
  execution then terminates with each window's array at what the write-backs of the grid points leave there.
-/
import proofs.«133022_g73735998537873_cont_9to1_m_286_39_alg».proof.Proof.KBBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scoped rest is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [scopedRest_scratch, show (dats m 0 c).Φ 0 = iprop(∃ d, owns (c : Thread nD τ) scM fullShare d) from rfl]
  iintro ⟨-, H⟩; iexact H

/-- After the last point the invariant gives the scoped rest back: the scratch's contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 8 := N_0; omega), scopedRest_scratch]
  iintro H; isplitr; · iempintro
  iexists _; iexact H

/-- The three buffers behind the four windows' arrays, each whole at the full share, make the windows' arrays at
    entry: the proxy bank's share is split in two. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  show iprop((((c.tc : Thread nD τ).loc main_arg0) ↦{fullShare} V m c main_arg0) ∗ (((c.tc : Thread nD τ).loc main_arg1) ↦{fullShare} V m c main_arg1) ∗ (((c.tc : Thread nD τ).loc main_v0) ↦{fullShare} V m c main_v0)) ⊢ _
  iintro ⟨H0, H1, H3⟩
  ihave H12 := (pointsTo_share (PosShare.mem_left_op_right fullShare)).1 $$ H1
  icases H12 with ⟨H1, H2⟩
  isplitl [H0]
  · rw [(arr_whole0 0).set_eq_univ]; iexact H0
  isplitl [H1]
  · rw [(arr_whole0 1).set_eq_univ]; iexact H1
  isplitl [H2]
  · rw [(arr_whole0 2).set_eq_univ]; iexact H2
  rw [(arr_whole0 3).set_eq_univ]; iexact H3

-- the launch theorem's implicit arguments are found by unifying its conclusion with this one, which takes unfolding
-- plain definitions in a metavariable's type
set_option backward.isDefEq.respectTransparency.types false in
/-- From any memory with zero counters every weakly fair execution of @main terminates, and in every final state each
    window's array holds what the library computes from the proof data: an input its entry contents, the result
    those overwritten block by block by what the body left at each point. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun _ => rfl))
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun _ _ => True)
    (hY := fun c s' => by
      iintro ⟨-, -, HSI⟩; imodintro
      isplitr; · ipureintro; trivial
      iexact HSI)
    (hQ := fun s h c w => (h c).1 w)

/-- info: 'Cert.Kernel.Hand.run_main' depends on axioms: [propext, Classical.choice, Quot.sound] -/
#guard_msgs in #print axioms run_main

/-- The frame: the program runs to the end from any memory with zero counters, nothing faults, and both argument
    arrays end as they began (each is an input of the pipeline, never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 1).trans (((dats m 0 c).arrAt_in 1 rfl _).trans (A_eq m c 1))⟩) (run_main m ρ)

end Cert.Kernel.Hand

end
-- ==== Proof.KISetup.lean ====
/-
  What the two cases of the body and the launch share: the arrays as the region finds them, each window's block at a
  grid point, the one branch condition decided over the grid (it holds at the first point only), the staging and
  scratch memrefs, and the invariant's two shapes (the scratch at anything before the first point).
-/
import proofs.«133022_g73735998537873_cont_9to1_m_286_39_alg».proof.Proof.Gen.KernelIdeal.Launch
import proofs.«133022_g73735998537873_cont_9to1_m_286_39_alg».proof.Proof.Gen.KernelIdeal.Skeleton
import proofs.«133022_g73735998537873_cont_9to1_m_286_39_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch contents (no host operation precedes it). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: "this is grid point 0". -/
abbrev cond0 (i : grid0.Coords) : Prop := (Scalar.cmpi .ne (Scalar.extui (Scalar.cmpi .eq (BitVec.ofNat 32 (i 0).val) 0#32)) 0#32) = 1#1
/-- It holds at the first point and at no other. -/
theorem hcond0 : ∀ t : Fin cfg0.N, cond0 (grid0.coords t) ↔ t.val = 0 :=
  (by decide +kernel : ∀ t : Fin grid0.N, cond0 (grid0.coords t) ↔ t.val = 0)

/-- No window is idle at any point. -/
theorem live0 : ∀ (w : Fin cfg0.W) (i : grid0.Coords), cfg0.idle w i = false := fun _ _ => rfl

/-- Each window's current staging memref at point `t`, and its wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x2048 .f32 := win0_3.stage (cfg0.slots t 3)
abbrev hs3 (t : Fin cfg0.N) : (ms3 t).IsWhole := hstage0_3 ((cfg0.slots t 3).cast nbuf0_3)
/-- The scratch that carries the normalized queries from the first point to the later ones. -/
abbrev scM : Memref sig .tc .vmem S2048x512 .bf16 := Memref.whole cc0_scratch0
abbrev VS : View sig .tc .vmem S2048x512 .bf16 := (scM).view
/-- One staging buffer of the output window, through which its contents are stated. -/
abbrev VO : View sig .tc .vmem S128x2048 .f32 := (Memref.whole cc0_stg3_0 : Memref sig .tc .vmem S128x2048 .f32).view

/-- The scoped buffers that are no staging buffer: the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KIRunA.lean ====
/-
  The body at the FIRST grid point (the branch taken): it reads the whole query block, writes the row-normalized
  queries into the scratch, reads them back, and stores the two halves of the output block, each the per-class maximum
  of the products of a half of the proxy rows with the normalized queries. The pieces each buffer ends with are found
  by running the body symbolically.
-/
import proofs.«133022_g73735998537873_cont_9to1_m_286_39_alg».proof.Proof.KISetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the scratch, as pieces (last first), at a point
    where the branch is taken, with the proof that on whole memrefs — the three inputs at their contents, the output
    and the scratch at anything — the body runs to the continuation holding the inputs as they were and the output and
    the scratch with those pieces written. -/
noncomputable def kernelRunA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) :
    Σ' (L3 : List (View.Piece (Elt F) S128x2048 .f32)), { LS : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__fused_kernel i arg1 harg1 arg2 harg2 arg3 harg3 arg4 harg4 arg5 harg5) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg1.eq_unread hf0; obtain rfl := harg2.eq_unread hf1; obtain rfl := harg3.eq_unread hf2
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Hand

end
-- ==== Proof.KIRunB.lean ====
/-
  The body at a LATER grid point (the branch not taken): the scratch still holds the normalized queries the first
  point wrote; the body reads them and stores the two halves of the output block as at the first point. The scratch is
  handed back as it was found.
-/
import proofs.«133022_g73735998537873_cont_9to1_m_286_39_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref, as pieces (last first), at a point where the branch is
    not taken, with the proof that on whole memrefs — the three inputs and the scratch at their contents, the output at
    anything — the body runs to the continuation holding the inputs and the scratch as they were and the output with
    those pieces written. -/
noncomputable def kernelRunB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : ¬cond0 i)
    (x0 : Vec F S2048x512 .f32) (x1 : Vec F S1024x512 .f32) (x2 : Vec F S1024x512 .f32) (xs : Vec F S2048x512 .bf16) :
    { L3 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS

end Cert.KernelIdeal.Hand

end
-- ==== Proof.KIBody.lean ====
/-
  What the output block and the scratch hold after the body at each grid point, the proof data of the pipeline, and the
  body obligation at a generic point: at the first point the body fills the scratch with the normalized queries; at
  every later point it finds them there and leaves them; at every point it overwrites the whole output block.
-/
import proofs.«133022_g73735998537873_cont_9to1_m_286_39_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the stores into the output block tile it (two half-blocks of 64 rows). -/
theorem coverA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) (y : S128x2048.Idx) :
    ∃ pc ∈ (kernelRunA c i arg1 harg1 arg2 harg2 arg3 harg3 arg4 harg4 arg5 harg5 hc0 x0 x1 x2).1, y ∈ pc.1.set :=
  View.cover_of_tiledL (kernelRunA c i arg1 harg1 arg2 harg2 arg3 harg3 arg4 harg4 arg5 harg5 hc0 x0 x1 x2).1 S64x2048.size (by sl_kernel_rfl) y

/-- What the first point leaves in the output's staging buffer: its pieces read back. -/
def outA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) : Vec F S128x2048 .f32 :=
  VO.read (Elt F) (VO.writes (Elt F) VO.junk (kernelRunA c i arg1 harg1 arg2 harg2 arg3 harg3 arg4 harg4 arg5 harg5 hc0 x0 x1 x2).1)

/-- At the first point the one store into the scratch covers it. -/
theorem scoverA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) (y : S2048x512.Idx) :
    ∃ pc ∈ (kernelRunA c i arg1 harg1 arg2 harg2 arg3 harg3 arg4 harg4 arg5 harg5 hc0 x0 x1 x2).2.1, y ∈ pc.1.set :=
  View.cover_of_tiledL (kernelRunA c i arg1 harg1 arg2 harg2 arg3 harg3 arg4 harg4 arg5 harg5 hc0 x0 x1 x2).2.1 S2048x512.size (by sl_kernel_rfl) y

/-- What the first point leaves in the scratch: its piece read back. -/
def soutA (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) : Vec F S2048x512 .bf16 :=
  VS.read (Elt F) (VS.writes (Elt F) VS.junk (kernelRunA c i arg1 harg1 arg2 harg2 arg3 harg3 arg4 harg4 arg5 harg5 hc0 x0 x1 x2).2.1)

/-- At a later point the stores into the output block tile it likewise. -/
theorem coverB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : ¬cond0 i)
    (x0 : Vec F S2048x512 .f32) (x1 : Vec F S1024x512 .f32) (x2 : Vec F S1024x512 .f32) (xs : Vec F S2048x512 .bf16) (y : S128x2048.Idx) :
    ∃ pc ∈ (kernelRunB c i arg1 harg1 arg2 harg2 arg3 harg3 arg4 harg4 arg5 harg5 hc0 x0 x1 x2 xs).1, y ∈ pc.1.set :=
  View.cover_of_tiledL (kernelRunB c i arg1 harg1 arg2 harg2 arg3 harg3 arg4 harg4 arg5 harg5 hc0 x0 x1 x2 xs).1 S64x2048.size (by sl_kernel_rfl) y

/-- What a later point leaves in the output's staging buffer, the scratch holding `xs`. -/
def outB (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : ¬cond0 i)
    (x0 : Vec F S2048x512 .f32) (x1 : Vec F S1024x512 .f32) (x2 : Vec F S1024x512 .f32) (xs : Vec F S2048x512 .bf16) : Vec F S128x2048 .f32 :=
  VO.read (Elt F) (VO.writes (Elt F) VO.junk (kernelRunB c i arg1 harg1 arg2 harg2 arg3 harg3 arg4 harg4 arg5 harg5 hc0 x0 x1 x2 xs).1)

/-- The first grid point. -/
abbrev p0 : Fin cfg0.N := ⟨0, by rw [show cfg0.N = 8 from N_0]; decide⟩

/-- The scratch's contents from the first point on: what the first point stored there. -/
def S0 (c : Dev nD) : Vec F S2048x512 .bf16 :=
  soutA c (grid0.coords p0) (ms0 p0) (hs0 p0) (ms1 p0) (hs1 p0) (ms2 p0) (hs2 p0) (ms3 p0) (hs3 p0) scM (Memref.isWhole_whole _) ((hcond0 p0).mpr rfl) (iblk m c 0 p0) (iblk m c 1 p0) (iblk m c 2 p0)

/-- The output block's staging buffer after the body at point `t`. -/
def outAt (c : Dev nD) (t : Fin cfg0.N) : Vec F S128x2048 .f32 :=
  if h : t.val = 0 then outA c (grid0.coords t) (ms0 t) (hs0 t) (ms1 t) (hs1 t) (ms2 t) (hs2 t) (ms3 t) (hs3 t) scM (Memref.isWhole_whole _) ((hcond0 t).mpr h) (iblk m c 0 t) (iblk m c 1 t) (iblk m c 2 t)
  else outB c (grid0.coords t) (ms0 t) (hs0 t) (ms1 t) (hs1 t) (ms2 t) (hs2 t) (ms3 t) (hs3 t) scM (Memref.isWhole_whole _) (fun hc => h ((hcond0 t).mp hc)) (iblk m c 0 t) (iblk m c 1 t) (iblk m c 2 t) (S0 m c)

/-- The region invariant before position `n`: before the first point the scratch at anything, afterwards the scratch at
    the normalized queries. -/
def PhiS (c : Dev nD) : ℕ → sProp 𝕄
  | 0 => iprop(∃ d, owns (c : Thread nD τ) scM fullShare d)
  | _ + 1 => owns (c : Thread nD τ) scM fullShare (S0 m c)

theorem PhiS_pos (c : Dev nD) (n : ℕ) (hz : n ≠ 0) : PhiS m c n = owns (c : Thread nD τ) scM fullShare (S0 m c) := by
  cases n with
  | zero => exact absurd rfl hz
  | succ n => rfl

/-- The proof data of the pipeline on core `c`: the arrays as the region finds them; after the body at point `t` each
    input's buffer at its block and the output's at `outAt`; the invariant `PhiS`; nothing owed; the query array and
    the result held whole, the proxy bank's two windows each at half its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; at the first point the scratch holds anything and
    is left at the normalized queries, at a later point it holds them and is left as found; the output block is
    overwritten whole. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) from rfl, show PhiS m c (t.val + 1) = owns (c : Thread nD τ) scM fullShare (S0 m c) from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).Φ t.castSucc = PhiS m c t.val from rfl]
  by_cases hz : t.val = 0
  · obtain rfl : t = p0 := Fin.ext hz
    rw [show outAt m c p0 = outA c (grid0.coords p0) (ms0 p0) (hs0 p0) (ms1 p0) (hs1 p0) (ms2 p0) (hs2 p0) (ms3 p0) (hs3 p0) scM (Memref.isWhole_whole _) ((hcond0 p0).mpr rfl) (iblk m c 0 p0) (iblk m c 1 p0) (iblk m c 2 p0) from dif_pos rfl]
    rw [show PhiS m c (p0 : Fin cfg0.N).val = iprop(∃ d, owns (c : Thread nD τ) scM fullShare d) from rfl]
    unfold S0 soutA outA
    iintro ⟨HS, Ho, ⟨%d0, H0⟩, ⟨%d1, H1⟩, ⟨%d2, H2⟩, ⟨%d3, H3⟩⟩
    iapply ((kernelRunA c (grid0.coords p0) _ _ _ _ _ _ _ _ _ _ ((hcond0 p0).mpr rfl) (iblk m c 0 p0) (iblk m c 1 p0) (iblk m c 2 p0)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS]
    · unfold owns; iexists _; isplitr
      swap; · iexact HS
      ipureintro; exact View.read_writes_of_cover _ _ _ _ _ (scoverA c _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · rw [show outAt m c t = outB c (grid0.coords t) (ms0 t) (hs0 t) (ms1 t) (hs1 t) (ms2 t) (hs2 t) (ms3 t) (hs3 t) scM (Memref.isWhole_whole _) (fun hc => hz ((hcond0 t).mp hc)) (iblk m c 0 t) (iblk m c 1 t) (iblk m c 2 t) (S0 m c) from dif_neg hz]
    rw [PhiS_pos m c _ hz]
    unfold outB
    iintro ⟨HS, Ho, ⟨%d0, H0⟩, ⟨%d1, H1⟩, ⟨%d2, H2⟩, ⟨%d3, H3⟩⟩
    iapply ((kernelRunB c (grid0.coords t) _ _ _ _ _ _ _ _ _ _ (fun hc => hz ((hcond0 t).mp hc)) (iblk m c 0 t) (iblk m c 1 t) (iblk m c 2 t) (S0 m c)).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS]; · iexact HS
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch: the region run from any memory with zero counters. The proxy bank is handed to the kernel through two
  windows, so its buffer's full share is dealt between them, half each (both only read it); the query array and the
  result are held whole. The scratch enters the invariant at anything and leaves it forgotten. Every weakly fair
  execution then terminates with each window's array at what the write-backs of the grid points leave there.
-/
import proofs.«133022_g73735998537873_cont_9to1_m_286_39_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scoped rest is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [scopedRest_scratch, show (dats m 0 c).Φ 0 = iprop(∃ d, owns (c : Thread nD τ) scM fullShare d) from rfl]
  iintro ⟨-, H⟩; iexact H

/-- After the last point the invariant gives the scoped rest back: the scratch's contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 8 := N_0; omega), scopedRest_scratch]
  iintro H; isplitr; · iempintro
  iexists _; iexact H

/-- The three buffers behind the four windows' arrays, each whole at the full share, make the windows' arrays at
    entry: the proxy bank's share is split in two. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  show iprop((((c.tc : Thread nD τ).loc main_arg0) ↦{fullShare} V m c main_arg0) ∗ (((c.tc : Thread nD τ).loc main_arg1) ↦{fullShare} V m c main_arg1) ∗ (((c.tc : Thread nD τ).loc main_v0) ↦{fullShare} V m c main_v0)) ⊢ _
  iintro ⟨H0, H1, H3⟩
  ihave H12 := (pointsTo_share (PosShare.mem_left_op_right fullShare)).1 $$ H1
  icases H12 with ⟨H1, H2⟩
  isplitl [H0]
  · rw [(arr_whole0 0).set_eq_univ]; iexact H0
  isplitl [H1]
  · rw [(arr_whole0 1).set_eq_univ]; iexact H1
  isplitl [H2]
  · rw [(arr_whole0 2).set_eq_univ]; iexact H2
  rw [(arr_whole0 3).set_eq_univ]; iexact H3

-- the launch theorem's implicit arguments are found by unifying its conclusion with this one, which takes unfolding
-- plain definitions in a metavariable's type
set_option backward.isDefEq.respectTransparency.types false in
/-- From any memory with zero counters every weakly fair execution of @main terminates, and in every final state each
    window's array holds what the library computes from the proof data: an input its entry contents, the result
    those overwritten block by block by what the body left at each point. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun _ => rfl))
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun _ _ => True)
    (hY := fun c s' => by
      iintro ⟨-, -, HSI⟩; imodintro
      isplitr; · ipureintro; trivial
      iexact HSI)
    (hQ := fun s h c w => (h c).1 w)

/-- info: 'Cert.KernelIdeal.Hand.run_main' depends on axioms: [propext, Classical.choice, Quot.sound] -/
#guard_msgs in #print axioms run_main

/-- The frame: the program runs to the end from any memory with zero counters, nothing faults, and both argument
    arrays end as they began (each is an input of the pipeline, never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 1).trans (((dats m 0 c).arrAt_in 1 rfl _).trans (A_eq m c 1))⟩) (run_main m ρ)

end Cert.KernelIdeal.Hand

end
-- ==== Proof.KIValue.lean ====
/-
  What the body leaves, read as values: the scratch after the first point is the row-normalized query block; the output
  block after any point is, on its rows 0..63, the per-class maxima over the first half of the point's proxy rows and,
  on its rows 64..127, those over the second half; and each input block is a run of rows of its array.
-/
import proofs.«133022_g73735998537873_cont_9to1_m_286_39_alg».proof.Proof.KILaunch
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open ValueIdx

theorem hz : (![0, 0] : Fin 2 → Nat) = fun _ => 0 := funext fun a => by fin_cases a <;> rfl

/-- The first point stores the normalized queries into the scratch. -/
theorem soutA_eq (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) :
    soutA c i arg1 harg1 arg2 harg2 arg3 harg3 arg4 harg4 arg5 harg5 hc0 x0 x1 x2 = k0_pay1 x0 := by
  unfold soutA
  rw [View.read_writes_eq_canon _ _ _ (scoverA c i arg1 harg1 arg2 harg2 arg3 harg3 arg4 harg4 arg5 harg5 hc0 x0 x1 x2)]
  unfold kernelRunA; dsimp only; try sl_unfold_words
  rw [View.canon_unit_zero hz]
  simp only [View.readAt_eq_ld, harg1.read_unread, View.ld_unit_zero (S := S2048x512) hz]

section
variable {Val : EltTy → Type} [∀ e, Nonempty (Val e)] {S : Shape} {e : EltTy}
/-- Two stores, the later listed first: at an index the later store does not cover, under the earlier one, the earlier
    store's payload is read. -/
theorem canon_pair_snd (r3 r2 : Rect S) (P3 : r3.shape.Idx → Val e) (P2 : r2.shape.Idx → Val e) (y : S.Idx) (x : r2.shape.Idx)
    (hnot : y ∉ r3.set) (hy : y = r2.emb x) :
    View.canon [(⟨r3, P3⟩ : View.Piece Val S e), ⟨r2, P2⟩] y = P2 x := by
  subst hy
  rw [View.canon_cons_of_not_mem _ _ hnot, View.canon_cons_emb]
/-- At an index under the later store, its payload is read. -/
theorem canon_pair_fst (r3 r2 : Rect S) (P3 : r3.shape.Idx → Val e) (P2 : r2.shape.Idx → Val e) (y : S.Idx) (x : r3.shape.Idx)
    (hy : y = r3.emb x) :
    View.canon [(⟨r3, P3⟩ : View.Piece Val S e), ⟨r2, P2⟩] y = P3 x := by
  subst hy
  rw [View.canon_cons_emb]
end

/-- A row below 64 is not among rows 64..127. -/
theorem not_mem_hi (y : S128x2048.Idx) (x : S64x2048.Idx) (h0 : (y 0).val = (x 0).val) :
    y ∉ (Rect.unit (s := S128x2048) ![64, 0] S64x2048.size inb_S128x2048_S64x2048_64_0).set := by
  rw [Rect.mem_set_unit]; intro h
  have := (h 0).1; have hx := (x 0).isLt
  change 64 ≤ (y 0).val at this; change (x 0).val < 64 at hx; omega

/-- A row below 64 of the block is that row of the first half-block. -/
theorem eq_emb_lo (y : S128x2048.Idx) (x : S64x2048.Idx) (h0 : (y 0).val = (x 0).val) (h1 : (y 1).val = (x 1).val) :
    y = (Rect.unit (s := S128x2048) ![0, 0] S64x2048.size inb_S128x2048_S64x2048_0_0).emb x := by
  funext a; apply Fin.ext; rw [Rect.emb_apply]
  match a with
  | ⟨0, _⟩ => show (y 0).val = 0 + 1 * (x 0).val; omega
  | ⟨1, _⟩ => show (y 1).val = 0 + 1 * (x 1).val; omega

/-- A row from 64 on is a row of the second half-block. -/
theorem eq_emb_hi (y : S128x2048.Idx) (x : S64x2048.Idx) (h0 : (y 0).val = 64 + (x 0).val) (h1 : (y 1).val = (x 1).val) :
    y = (Rect.unit (s := S128x2048) ![64, 0] S64x2048.size inb_S128x2048_S64x2048_64_0).emb x := by
  funext a; apply Fin.ext; rw [Rect.emb_apply]
  match a with
  | ⟨0, _⟩ => show (y 0).val = 64 + 1 * (x 0).val; omega
  | ⟨1, _⟩ => show (y 1).val = 0 + 1 * (x 1).val; omega

/-- Two stores of 64 rows each, the later one into rows 64..127: on a row below 64 the earlier store's payload is read. -/
theorem canon_two_lo (P3 P2 : Vec F S64x2048 .f32) (y : S128x2048.Idx) (x : S64x2048.Idx)
    (h0 : (y 0).val = (x 0).val) (h1 : (y 1).val = (x 1).val) :
    View.canon [(⟨Rect.unit (s := S128x2048) ![64, 0] S64x2048.size inb_S128x2048_S64x2048_64_0, P3⟩ : View.Piece (Elt F) S128x2048 .f32), (⟨Rect.unit (s := S128x2048) ![0, 0] S64x2048.size inb_S128x2048_S64x2048_0_0, P2⟩ : View.Piece (Elt F) S128x2048 .f32)] y = P2 x := by
  have h := canon_pair_snd (Val := Elt F) (S := S128x2048) (e := .f32) (Rect.unit (s := S128x2048) ![64, 0] S64x2048.size inb_S128x2048_S64x2048_64_0) (Rect.unit (s := S128x2048) ![0, 0] S64x2048.size inb_S128x2048_S64x2048_0_0) P3 P2 y x (not_mem_hi y x h0) (eq_emb_lo y x h0 h1)
  exact h

/-- On a row from 64 on, the later store's payload is read. -/
theorem canon_two_hi (P3 P2 : Vec F S64x2048 .f32) (y : S128x2048.Idx) (x : S64x2048.Idx)
    (h0 : (y 0).val = 64 + (x 0).val) (h1 : (y 1).val = (x 1).val) :
    View.canon [(⟨Rect.unit (s := S128x2048) ![64, 0] S64x2048.size inb_S128x2048_S64x2048_64_0, P3⟩ : View.Piece (Elt F) S128x2048 .f32), (⟨Rect.unit (s := S128x2048) ![0, 0] S64x2048.size inb_S128x2048_S64x2048_0_0, P2⟩ : View.Piece (Elt F) S128x2048 .f32)] y = P3 x := by
  have h := canon_pair_fst (Val := Elt F) (S := S128x2048) (e := .f32) (Rect.unit (s := S128x2048) ![64, 0] S64x2048.size inb_S128x2048_S64x2048_64_0) (Rect.unit (s := S128x2048) ![0, 0] S64x2048.size inb_S128x2048_S64x2048_0_0) P3 P2 y x (eq_emb_hi y x h0 h1)
  exact h

/-- The output block after the first point: the two half-blocks, over the scratch's new contents. -/
theorem outA_eq (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : cond0 i)
    (x0 : Vec F S2048x512 .f32) (x1 : Vec F S1024x512 .f32) (x2 : Vec F S1024x512 .f32) :
    outA c i arg1 harg1 arg2 harg2 arg3 harg3 arg4 harg4 arg5 harg5 hc0 x0 x1 x2
      = View.canon [(⟨Rect.unit (s := S128x2048) ![64, 0] S64x2048.size inb_S128x2048_S64x2048_64_0, k0_pay3 (k0_pay1 x0) x2⟩ : View.Piece (Elt F) S128x2048 .f32), (⟨Rect.unit (s := S128x2048) ![0, 0] S64x2048.size inb_S128x2048_S64x2048_0_0, k0_pay2 (k0_pay1 x0) x1⟩ : View.Piece (Elt F) S128x2048 .f32)] := by
  unfold outA
  rw [View.read_writes_eq_canon _ _ _ (coverA c i arg1 harg1 arg2 harg2 arg3 harg3 arg4 harg4 arg5 harg5 hc0 x0 x1 x2)]
  unfold kernelRunA; dsimp only; try sl_unfold_words
  rw [View.readCov_unit_zero (S := S2048x512) _ hz]
  simp only [View.readAt_eq_ld, harg1.read_unread, harg2.read_unread, harg3.read_unread,
    View.ld_unit_zero (S := S2048x512) hz, View.ld_unit_zero (S := S1024x512) hz]
  try rfl

/-- The output block after a later point: the same, over what the scratch holds. -/
theorem outB_eq (c : Dev nD) (i : grid0.Coords) (arg1 : Memref sig .tc .vmem S2048x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x2048 .f32) (harg4 : arg4.IsWhole) (arg5 : Memref sig .tc .vmem S2048x512 .bf16) (harg5 : arg5.IsWhole) (hc0 : ¬cond0 i)
    (x0 : Vec F S2048x512 .f32) (x1 : Vec F S1024x512 .f32) (x2 : Vec F S1024x512 .f32) (xs : Vec F S2048x512 .bf16) :
    outB c i arg1 harg1 arg2 harg2 arg3 harg3 arg4 harg4 arg5 harg5 hc0 x0 x1 x2 xs
      = View.canon [(⟨Rect.unit (s := S128x2048) ![64, 0] S64x2048.size inb_S128x2048_S64x2048_64_0, k0_pay3 xs x2⟩ : View.Piece (Elt F) S128x2048 .f32), (⟨Rect.unit (s := S128x2048) ![0, 0] S64x2048.size inb_S128x2048_S64x2048_0_0, k0_pay2 xs x1⟩ : View.Piece (Elt F) S128x2048 .f32)] := by
  unfold outB
  rw [View.read_writes_eq_canon _ _ _ (coverB c i arg1 harg1 arg2 harg2 arg3 harg3 arg4 harg4 arg5 harg5 hc0 x0 x1 x2 xs)]
  unfold kernelRunB; dsimp only; try sl_unfold_words
  simp only [View.readAt_eq_ld, harg2.read_unread, harg3.read_unread, harg5.read_unread,
    View.ld_unit_zero (S := S2048x512) hz, View.ld_unit_zero (S := S1024x512) hz]
  try rfl

/-- From the first point on the scratch holds the normalized query block. -/
theorem S0_eq (c : Dev nD) : S0 m c = k0_pay1 (iblk m c 0 p0) := by
  unfold S0; rw [soutA_eq]

/-- At every point the output block is the two half-blocks over the normalized queries and the point's two blocks of
    proxy rows. -/
theorem outAt_eq (c : Dev nD) (t : Fin cfg0.N) :
    outAt m c t = View.canon [(⟨Rect.unit (s := S128x2048) ![64, 0] S64x2048.size inb_S128x2048_S64x2048_64_0, k0_pay3 (k0_pay1 (iblk m c 0 p0)) (iblk m c 2 t)⟩ : View.Piece (Elt F) S128x2048 .f32), (⟨Rect.unit (s := S128x2048) ![0, 0] S64x2048.size inb_S128x2048_S64x2048_0_0, k0_pay2 (k0_pay1 (iblk m c 0 p0)) (iblk m c 1 t)⟩ : View.Piece (Elt F) S128x2048 .f32)] := by
  unfold outAt
  split
  · rename_i h
    obtain rfl : t = p0 := Fin.ext h
    rw [outA_eq]
  · rw [outB_eq, S0_eq]

end Cert.KernelIdeal.Hand

end
-- ==== Proof.ValSpec.lean ====
/-
  The value both programs compute, as ONE function of the two argument arrays.

  The arguments are `x : [2048, 512]` (one query per row) and `w : [16384, 512]` (sixteen proxy rows per class, the
  rows of class `c` being `16 c … 16 c + 15`). Each query row is divided by its Euclidean norm, floored at `ε`; the
  score of proxy row `n` against query `b` is their inner product; the result at `(c, b)` is the largest of the sixteen
  scores of class `c` against query `b`, the maximum being taken from `-∞`.

  One law is stated here, because both sides need it: the floored norm is never zero (it is at least `ε`, a positive
  number), so multiplying by its reciprocal and dividing by it are the same operation at every extended real.
-/
import Idealize.ShloMosaic.Lib.IdealHost

noncomputable section

namespace Cert.ValSpec

open Idealize.ShloMosaic Idealize.ShloMosaic.ValueIdx
open scoped BigOperators

/-- The floor `ε` under the norm: what the word `0x2B8CBCCC` denotes, about `10⁻¹²`. -/
def eps : EReal := Ideal.ofBits .f32 0x2B8CBCCC#32

/-- The floor is a positive number. -/
theorem eps_pos : 0 < eps := by
  unfold eps
  simp [Ideal.ofBits, Ideal.ieee, -EReal.coe_mul]

/-- The Euclidean norm of query row `b`, floored at `ε`. -/
def rnorm (x : (⟨2, ![2048, 512]⟩ : Shape).Idx → EReal) (b : Fin 2048) : EReal :=
  max (Ideal.sqrt (∑ k : Fin 512, x (ix2 b k) * x (ix2 b k))) eps

/-- The floored norm is at least `ε`, hence not zero. -/
theorem rnorm_ne_zero (x : (⟨2, ![2048, 512]⟩ : Shape).Idx → EReal) (b : Fin 2048) : rnorm x b ≠ 0 :=
  (lt_of_lt_of_le eps_pos (le_max_right _ _)).ne'

/-- Entry `k` of query row `b` divided by the row's floored norm. -/
def dnorm (x : (⟨2, ![2048, 512]⟩ : Shape).Idx → EReal) (b : Fin 2048) (k : Fin 512) : EReal :=
  Ideal.div (x (ix2 b k)) (rnorm x b)

/-- Multiplying by the reciprocal of the floored norm is dividing by it. -/
theorem mul_recip_rnorm (x : (⟨2, ![2048, 512]⟩ : Shape).Idx → EReal) (b : Fin 2048) (k : Fin 512) :
    x (ix2 b k) * Ideal.div 1 (rnorm x b) = dnorm x b k :=
  Ideal.mul_one_div (rnorm_ne_zero x b)

/-- The score of proxy row `n` against query `b`: the inner product of the row with the normalized query. -/
def score (x : (⟨2, ![2048, 512]⟩ : Shape).Idx → EReal) (w : (⟨2, ![16384, 512]⟩ : Shape).Idx → EReal)
    (n : Fin 16384) (b : Fin 2048) : EReal :=
  ∑ k : Fin 512, w (ix2 n k) * dnorm x b k

/-- Proxy row `p` of class `c`. -/
def proxyRow (c : Fin 1024) (p : Fin 16) : Fin 16384 :=
  ⟨c.val * 16 + p.val, by have := c.isLt; have := p.isLt; omega⟩

/-- The result at class `c` and query `b`: the largest of the class's sixteen scores, from `-∞`. -/
def Gat (x : (⟨2, ![2048, 512]⟩ : Shape).Idx → EReal) (w : (⟨2, ![16384, 512]⟩ : Shape).Idx → EReal)
    (c : Fin 1024) (b : Fin 2048) : EReal :=
  (Finset.univ : Finset (Fin 16)).fold max (Ideal.ofBits .f32 0xFF800000#32) fun p => score x w (proxyRow c p) b

/-- The whole result array. -/
def G (x : (⟨2, ![2048, 512]⟩ : Shape).Idx → EReal) (w : (⟨2, ![16384, 512]⟩ : Shape).Idx → EReal) :
    (⟨2, ![1024, 2048]⟩ : Shape).Idx → EReal :=
  fun i => Gat x w ⟨(i 0).val, idx2_lt0 i⟩ ⟨(i 1).val, idx2_lt1 i⟩

/-- The result array read at the index with coordinates `(c, b)`. -/
theorem G_ix2 (x : (⟨2, ![2048, 512]⟩ : Shape).Idx → EReal) (w : (⟨2, ![16384, 512]⟩ : Shape).Idx → EReal)
    (c : Fin 1024) (b : Fin 2048) : G x w (ix2 c b) = Gat x w c b := rfl

end Cert.ValSpec

end
-- ==== Proof.ValKernel.lean ====
/-
  What the kernel's three payloads compute, index by index, at the ideal values.

  The first payload is the normalized query array: entry `(b, k)` of the argument times the reciprocal of row `b`'s
  floored norm. The norm's column is built by a lane sum of squares, a cast of the 2048 sums to a column `[2048, 1]`, a
  square root, a maximum with `ε` and a reciprocal, and the column is broadcast along the lanes; the narrowing to
  bf16 and the cast to the same shape change nothing at these values. Since the floored norm is never zero, the
  product with the reciprocal is the quotient.

  The second and third payloads are one function of a block of 1024 proxy rows: the block times the transposed
  normalized queries (a contraction over the 512 lanes into a zero accumulator), the 1024 rows regrouped as 64
  classes of 16, and the maximum over each class's 16 rows from `-∞`. Row `16 r + p` of the block is proxy row
  `p` of the block's class `r`, so when the block is rows `base … base + 1023` of the proxy array and
  `16 c = base + 16 r`, the payload at `(r, b)` is the specification at `(c, b)`.
-/
import proofs.«133022_g73735998537873_cont_9to1_m_286_39_alg».proof.Proof.Gen.KernelIdeal.Skeleton
import proofs.«133022_g73735998537873_cont_9to1_m_286_39_alg».proof.Proof.ValSpec
import Idealize.ShloMosaic.Lib.Pipeline.Value
import Idealize.ShloMosaic.Lib.ValueLayout
import Idealize.ShloMosaic.PureOps.Ideal.Laws

noncomputable section

namespace Cert.ValKernel

open Idealize.ShloMosaic Idealize.ShloMosaic.ValueIdx Cert.KernelIdeal Cert.KernelIdeal.Gen Cert.ValSpec
open scoped BigOperators

/-! ## The normalized queries -/

/-- The lane sum of squares of row `b`. -/
theorem rowSumSq (x : FVec Ideal S2048x512 .f32) (b : Fin 2048) :
    multiReduction .add [1] S2048 (mulf x x) 0x00000000#32 reduces_S2048x512_S2048 (.inl rfl) rfl (ix1 b)
      = ∑ k : Fin 512, x (ix2 b k) * x (ix2 b k) := by
  refine (Ideal.multiReduction_add_single (mulf x x) 0x00000000#32 reduces_S2048x512_S2048 (.inl rfl) rfl (ix1 b)).trans ?_
  show ∑ k : Fin 512, (mulf x x) (reduces_S2048x512_S2048.lift (ix1 b) k) = _
  refine Finset.sum_congr rfl fun k _ => ?_
  have e : reduces_S2048x512_S2048.lift (ix1 b) k = ix2 b k :=
    funext fun a => Fin.ext (by match a with | ⟨0, _⟩ => rfl | ⟨1, _⟩ => rfl)
  rw [e]; rfl

/-- The 2048 sums cast to a column `[2048, 1]`: row `b` of the column is sum `b`. -/
theorem colCast_apply {α : Type} (v : S2048.Idx → α) (b : Fin 2048) (u : Fin 1) :
    shapeCast S2048x1 v shapeCasts_S2048_S2048x1 (ix2 b u) = v (ix1 b) :=
  shapeCast_apply v shapeCasts_S2048_S2048x1 (ix2 b u) (ix1 b) (by
    have hu : u.val = 0 := by omega
    rw [Shape.rowMajor_val_one, Shape.rowMajor_val_two]
    show b.val = b.val * 1 + u.val
    omega)

/-- The column broadcast along the 512 lanes: entry `(b, k)` is row `b` of the column. -/
theorem colBroadcast_apply {α : Type} (v : S2048x1.Idx → α) (b : Fin 2048) (k : Fin 512) :
    broadcastTo S2048x512 v broadcasts_S2048x1_S2048x512 (ix2 b k) = v (ix2 b (0 : Fin 1)) :=
  broadcastTo_apply v broadcasts_S2048x1_S2048x512 (ix2 b k) (ix2 b (0 : Fin 1)) fun a =>
    match a with
    | ⟨0, _⟩ => by show b.val = if (2048 : Nat) = 1 then 0 else b.val; rw [if_neg (by decide)]
    | ⟨1, _⟩ => by show 0 = if (1 : Nat) = 1 then 0 else k.val; rw [if_pos rfl]

/-- The column of reciprocals of the floored norms, as the first payload builds it. -/
def recipCol (x : FVec Ideal S2048x512 .f32) : FVec Ideal S2048x1 .f32 :=
  divf (broadcast S2048x1 (Scalar.ofBits .f32 0x3F800000#32))
    (maximumf
      (sqrt (shapeCast S2048x1
        (multiReduction .add [1] S2048 (mulf x x) 0x00000000#32 reduces_S2048x512_S2048 (.inl rfl) rfl)
        shapeCasts_S2048_S2048x1))
      (broadcast S2048x1 (Scalar.ofBits .f32 0x2B8CBCCC#32)))

/-- The first payload over that column. -/
theorem pay1_eq (x : Vec Ideal S2048x512 .f32) :
    k0_pay1 (F := Ideal) x
      = shapeCast S2048x512
          (truncf .bf16 (mulf x (broadcastTo S2048x512 (recipCol x) broadcasts_S2048x1_S2048x512)) bitsLt_bf16_f32)
          shapeCasts_S2048x512_S2048x512 := rfl

/-- Row `b` of the column is the reciprocal of row `b`'s floored norm. -/
theorem recipCol_apply (x : FVec Ideal S2048x512 .f32) (b : Fin 2048) (u : Fin 1) :
    recipCol x (ix2 b u) = Ideal.div 1 (rnorm x b) := by
  show Ideal.div (Ideal.ofBits .f32 0x3F800000#32)
      (max (Ideal.sqrt (shapeCast S2048x1
          (multiReduction .add [1] S2048 (mulf x x) 0x00000000#32 reduces_S2048x512_S2048 (.inl rfl) rfl)
          shapeCasts_S2048_S2048x1 (ix2 b u)))
        (Ideal.ofBits .f32 0x2B8CBCCC#32)) = _
  rw [Ideal.ofBits_one_f32, colCast_apply, rowSumSq]
  rfl

/-- THE FIRST PAYLOAD AT `(b, k)`: entry `k` of query row `b` divided by the row's floored norm. -/
theorem pay1_apply (x : Vec Ideal S2048x512 .f32) (b : Fin 2048) (k : Fin 512) :
    k0_pay1 (F := Ideal) x (ix2 b k) = dnorm x b k := by
  rw [pay1_eq, shapeCast_self]
  show x (ix2 b k) * broadcastTo S2048x512 (recipCol x) broadcasts_S2048x1_S2048x512 (ix2 b k) = _
  rw [colBroadcast_apply, recipCol_apply]
  exact mul_recip_rnorm x b k

/-! ## A block of proxy rows against the normalized queries -/

/-- The block product: 1024 proxy rows against the queries, contracted over the 512 lanes into a zero accumulator. -/
def blockProd (s : FVec Ideal S2048x512 .bf16) (v : FVec Ideal S1024x512 .f32) : FVec Ideal S1024x2048 .f32 :=
  matmul dot_S1024x512_S2048x512_S1024x2048_1_1_0_0_n_n none (truncf .bf16 v bitsLt_bf16_f32) s (constant S1024x2048 .f32 0x00000000#32)

/-- The second payload over that product: its 1024 rows regrouped as 64 classes of 16, and each class's maximum. -/
theorem pay2_eq (s : Vec Ideal S2048x512 .bf16) (v : Vec Ideal S1024x512 .f32) :
    k0_pay2 (F := Ideal) s v
      = multiReduction .maximumf [1] S64x2048
          (shapeCast S64x16x2048 (blockProd s v) shapeCasts_S1024x2048_S64x16x2048)
          0xFF800000#32 reduces_S64x16x2048_S64x2048 (.inl rfl) rfl := rfl

/-- The third payload is the second: the same operations on the other half of the rows. -/
theorem pay3_eq_pay2 : k0_pay3 (F := Ideal) = k0_pay2 (F := Ideal) := rfl

/-- The product's left operand at output `(n, b)` and lane `k` is read at row `n` … -/
theorem blockDot_lhs0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
/-- … and lane `k`; -/
theorem blockDot_lhs1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- the right operand at query row `b` … -/
theorem blockDot_rhs0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
/-- … and lane `k`. -/
theorem blockDot_rhs1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The block product at `(n, b)`: the inner product of block row `n` with query row `b`. -/
theorem blockProd_apply (s : FVec Ideal S2048x512 .bf16) (v : FVec Ideal S1024x512 .f32) (n : Fin 1024) (b : Fin 2048) :
    blockProd s v (ix2 n b) = ∑ k : Fin 512, v (ix2 n k) * s (ix2 b k) := by
  unfold blockProd
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 n b) ((contrEquiv1 dot_S1024x512_S2048x512_S1024x2048_1_1_0_0_n_n 512 rfl rfl).symm k) = ix2 n k :=
    funext fun a => Fin.ext (by
      match a with
      | ⟨0, _⟩ => exact blockDot_lhs0 _ _
      | ⟨1, _⟩ => exact (blockDot_lhs1 _ _).trans hk)
  have er : dot_S1024x512_S2048x512_S1024x2048_1_1_0_0_n_n.rhsIdx (ix2 n b) ((contrEquiv1 dot_S1024x512_S2048x512_S1024x2048_1_1_0_0_n_n 512 rfl rfl).symm k) = ix2 b k :=
    funext fun a => Fin.ext (by
      match a with
      | ⟨0, _⟩ => exact blockDot_rhs0 _ _
      | ⟨1, _⟩ => exact (blockDot_rhs1 _ _).trans hk)
  rw [el, er, truncf_apply]

/-- The 1024 rows regrouped as 64 classes of 16: row `p` of class `r` is row `16 r + p`. -/
theorem classCast_apply {α : Type} (y : S1024x2048.Idx → α) (r : Fin 64) (p : Fin 16) (b : Fin 2048) :
    shapeCast S64x16x2048 y shapeCasts_S1024x2048_S64x16x2048 (ix3 r p b)
      = y (ix2 (⟨r.val * 16 + p.val, by have := r.isLt; have := p.isLt; omega⟩ : Fin 1024) b) :=
  shapeCast_apply y shapeCasts_S1024x2048_S64x16x2048 (ix3 r p b) _ (by
    rw [Shape.rowMajor_val_two, Shape.rowMajor_val_three]
    rfl)

/-- The maximum over a class's 16 rows, from `-∞`. -/
theorem classMax_apply (y : FVec Ideal S64x16x2048 .f32) (r : Fin 64) (b : Fin 2048) :
    multiReduction .maximumf [1] S64x2048 y 0xFF800000#32 reduces_S64x16x2048_S64x2048 (.inl rfl) rfl (ix2 r b)
      = (Finset.univ : Finset (Fin 16)).fold max (Ideal.ofBits .f32 0xFF800000#32) fun p => y (ix3 r p b) := by
  refine (Ideal.multiReduction_maximumf_single y 0xFF800000#32 reduces_S64x16x2048_S64x2048 (.inl rfl) rfl (ix2 r b)).trans ?_
  have e : (y ∘ reduces_S64x16x2048_S64x2048.lift (ix2 r b)) = fun p : Fin 16 => y (ix3 r p b) :=
    funext fun p => congrArg y (funext fun a => Fin.ext (by
      match a with | ⟨0, _⟩ => rfl | ⟨1, _⟩ => rfl | ⟨2, _⟩ => rfl))
  exact congrArg (fun f => (Finset.univ : Finset (Fin 16)).fold max (Ideal.ofBits .f32 0xFF800000#32) f) e

/-- THE SECOND PAYLOAD ON A BLOCK OF THE PROXY ARRAY. Let the block `v` be rows `base … base + 1023` of `w`, and let
    class `c` of the array be class `r` of the block (`16 c = base + 16 r`). Then the payload over the normalized
    queries, at `(r, b)`, is the specification at `(c, b)`. -/
theorem pay2_block (x : Vec Ideal S2048x512 .f32) (w : Vec Ideal S16384x512 .f32) (v : Vec Ideal S1024x512 .f32)
    (base : Nat) (hbase : base + 1024 ≤ 16384)
    (hv : ∀ (i : Fin 1024) (k : Fin 512),
      v (ix2 i k) = w (ix2 (⟨base + i.val, by have := i.isLt; omega⟩ : Fin 16384) k))
    (r : Fin 64) (b : Fin 2048) (c : Fin 1024) (hc : 16 * c.val = base + 16 * r.val) :
    k0_pay2 (F := Ideal) (k0_pay1 (F := Ideal) x) v (ix2 r b) = G x w (ix2 c b) := by
  rw [pay2_eq, classMax_apply, G_ix2]
  unfold Gat
  refine Finset.fold_congr fun p _ => ?_
  rw [classCast_apply, blockProd_apply]
  unfold score
  refine Finset.sum_congr rfl fun k _ => ?_
  rw [hv, pay1_apply]
  refine congrArg (fun n : Fin 16384 => w (ix2 n k) * dnorm x b k) (Fin.ext ?_)
  show base + (r.val * 16 + p.val) = c.val * 16 + p.val
  omega

/-- THE THIRD PAYLOAD ON A BLOCK: the same statement. -/
theorem pay3_block (x : Vec Ideal S2048x512 .f32) (w : Vec Ideal S16384x512 .f32) (v : Vec Ideal S1024x512 .f32)
    (base : Nat) (hbase : base + 1024 ≤ 16384)
    (hv : ∀ (i : Fin 1024) (k : Fin 512),
      v (ix2 i k) = w (ix2 (⟨base + i.val, by have := i.isLt; omega⟩ : Fin 16384) k))
    (r : Fin 64) (b : Fin 2048) (c : Fin 1024) (hc : 16 * c.val = base + 16 * r.val) :
    k0_pay3 (F := Ideal) (k0_pay1 (F := Ideal) x) v (ix2 r b) = G x w (ix2 c b) := by
  rw [pay3_eq_pay2]
  exact pay2_block x w v base hbase hv r b c hc

end Cert.ValKernel

end
-- ==== Proof.KIFinal.lean ====
/-
  The result array after the run, at the ideal instance: block `t` of the result holds, in row `j`, the maxima for class
  `128 t + j` — rows 0..63 from proxy rows `2048 t ..`, rows 64..127 from proxy rows `2048 t + 1024 ..` of the bank —
  so every block is the block of ONE function of the two argument arrays, the blocks tile the result, and the result
  ends holding that function.
-/
import proofs.«133022_g73735998537873_cont_9to1_m_286_39_alg».proof.Proof.KIValue
import proofs.«133022_g73735998537873_cont_9to1_m_286_39_alg».proof.Proof.ValKernel

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open ValueIdx

/-- The index maps over the grid: the query window stays at block 0, the two proxy windows are at blocks `2t` and
    `2t + 1`, the result window at block `t`; the result window is never cut. -/
theorem idx_facts : ∀ t : Fin cfg0.N,
    (win0_0.index t 0 = 0 ∧ win0_0.index t 1 = 0) ∧ (win0_1.index t 0 = 2 * t.val ∧ win0_1.index t 1 = 0)
    ∧ (win0_2.index t 0 = 2 * t.val + 1 ∧ win0_2.index t 1 = 0) ∧ (win0_3.index t 0 = t.val ∧ win0_3.index t 1 = 0)
    ∧ (win0_3.xsize (grid0.coords t) 0 = 128 ∧ win0_3.xsize (grid0.coords t) 1 = 2048) :=
  (by decide +kernel : ∀ t : Fin grid0.N,
    (win0_0.index t 0 = 0 ∧ win0_0.index t 1 = 0) ∧ (win0_1.index t 0 = 2 * t.val ∧ win0_1.index t 1 = 0)
    ∧ (win0_2.index t 0 = 2 * t.val + 1 ∧ win0_2.index t 1 = 0) ∧ (win0_3.index t 0 = t.val ∧ win0_3.index t 1 = 0)
    ∧ (win0_3.xsize (grid0.coords t) 0 = 128 ∧ win0_3.xsize (grid0.coords t) 1 = 2048))

/-- The query window's block is the whole query array. -/
theorem iblk0_apply (c : Dev nD) (x : S2048x512.Idx) :
    (iblk m c 0 p0 : Vec F S2048x512 .f32) x = (m ((c : Thread nD τ).loc main_arg0) : S2048x512.Idx → Elt F .f32) x := by
  have hi := (idx_facts p0).1
  unfold iblk
  rw [View.read_apply]
  show V m c main_arg0 _ = m (c.tc.loc main_arg0) _
  unfold V
  congr 1
  funext a
  apply Fin.ext
  match a with
  | ⟨0, _⟩ => show win0_0.index p0 0 * 2048 + 1 * (x 0).val = (x 0).val; rw [hi.1]; omega
  | ⟨1, _⟩ => show win0_0.index p0 1 * 512 + 1 * (x 1).val = (x 1).val; rw [hi.2]; omega

theorem iblk0_eq (c : Dev nD) : (iblk m c 0 p0 : Vec F S2048x512 .f32) = m ((c : Thread nD τ).loc main_arg0) :=
  funext fun x => iblk0_apply m c x

/-- The first proxy window's block at point `t` is rows `2048 t .. 2048 t + 1023` of the bank. -/
theorem iblk1_apply (c : Dev nD) (t : Fin cfg0.N) (x : S1024x512.Idx) (k : S16384x512.Idx)
    (hk0 : (k 0).val = 2048 * t.val + (x 0).val) (hk1 : (k 1).val = (x 1).val) :
    (iblk m c 1 t : Vec F S1024x512 .f32) x = (m ((c : Thread nD τ).loc main_arg1) : S16384x512.Idx → Elt F .f32) k := by
  have hi := (idx_facts t).2.1
  unfold iblk
  rw [View.read_apply]
  show V m c main_arg1 _ = m (c.tc.loc main_arg1) _
  unfold V
  congr 1
  funext a
  apply Fin.ext
  match a with
  | ⟨0, _⟩ => show win0_1.index t 0 * 1024 + 1 * (x 0).val = (k 0).val; rw [hi.1, hk0]; omega
  | ⟨1, _⟩ => show win0_1.index t 1 * 512 + 1 * (x 1).val = (k 1).val; rw [hi.2, hk1]; omega

/-- The second proxy window's block at point `t` is rows `2048 t + 1024 .. 2048 t + 2047` of the bank. -/
theorem iblk2_apply (c : Dev nD) (t : Fin cfg0.N) (x : S1024x512.Idx) (k : S16384x512.Idx)
    (hk0 : (k 0).val = 2048 * t.val + 1024 + (x 0).val) (hk1 : (k 1).val = (x 1).val) :
    (iblk m c 2 t : Vec F S1024x512 .f32) x = (m ((c : Thread nD τ).loc main_arg1) : S16384x512.Idx → Elt F .f32) k := by
  have hi := (idx_facts t).2.2.1
  unfold iblk
  rw [View.read_apply]
  show V m c main_arg1 _ = m (c.tc.loc main_arg1) _
  unfold V
  congr 1
  funext a
  apply Fin.ext
  match a with
  | ⟨0, _⟩ => show win0_2.index t 0 * 1024 + 1 * (x 0).val = (k 0).val; rw [hi.1, hk0]; omega
  | ⟨1, _⟩ => show win0_2.index t 1 * 512 + 1 * (x 1).val = (k 1).val; rw [hi.2, hk1]; omega

/-! ## At the ideal instance -/

section Ideal

variable (mI : (ℓ : Loc nD τ sig) → Buf (Elt Ideal) ℓ)

/-- The result: the specification's function of the two argument arrays as the region finds them. -/
abbrev result (c : Dev nD) : Buf (Elt Ideal) ((c : Thread nD τ).loc main_v0) :=
  Cert.ValSpec.G (mI ((c : Thread nD τ).loc main_arg0)) (mI ((c : Thread nD τ).loc main_arg1))

/-- Entry `(j, b)` of the output block after point `t` is the specification at class `128 t + j` and query `b`. -/
theorem block_entry (c : Dev nD) (t : Fin cfg0.N) (j : Fin 128) (b : Fin 2048) (cl : Fin 1024)
    (hcl : cl.val = 128 * t.val + j.val) :
    outAt mI c t (ix2 j b) = Cert.ValSpec.G (mI ((c : Thread nD τ).loc main_arg0)) (mI ((c : Thread nD τ).loc main_arg1)) (ix2 cl b) := by
  have hN : t.val < 8 := lt_of_lt_of_eq t.isLt (show cfg0.N = 8 from N_0)
  rw [outAt_eq, iblk0_eq]
  by_cases hj : j.val < 64
  · refine (canon_two_lo (F := Ideal) (k0_pay3 (F := Ideal) (k0_pay1 (F := Ideal) (mI ((c : Thread nD τ).loc main_arg0))) (iblk mI c 2 t)) (k0_pay2 (F := Ideal) (k0_pay1 (F := Ideal) (mI ((c : Thread nD τ).loc main_arg0))) (iblk mI c 1 t)) (ix2 j b) (ix2 (⟨j.val, hj⟩ : Fin 64) b) rfl rfl).trans ?_
    exact Cert.ValKernel.pay2_block (mI ((c : Thread nD τ).loc main_arg0)) (mI ((c : Thread nD τ).loc main_arg1)) (iblk mI c 1 t)
      (2048 * t.val) (by omega)
      (fun i k => iblk1_apply mI c t (ix2 i k) (ix2 (⟨2048 * t.val + i.val, by have := i.isLt; omega⟩ : Fin 16384) k) rfl rfl)
      ⟨j.val, hj⟩ b cl (by show 16 * cl.val = 2048 * t.val + 16 * j.val; omega)
  · have hj' : j.val - 64 < 64 := by have := j.isLt; omega
    refine (canon_two_hi (F := Ideal) (k0_pay3 (F := Ideal) (k0_pay1 (F := Ideal) (mI ((c : Thread nD τ).loc main_arg0))) (iblk mI c 2 t)) (k0_pay2 (F := Ideal) (k0_pay1 (F := Ideal) (mI ((c : Thread nD τ).loc main_arg0))) (iblk mI c 1 t)) (ix2 j b) (ix2 (⟨j.val - 64, hj'⟩ : Fin 64) b) (by show j.val = 64 + (j.val - 64); omega) rfl).trans ?_
    exact Cert.ValKernel.pay3_block (mI ((c : Thread nD τ).loc main_arg0)) (mI ((c : Thread nD τ).loc main_arg1)) (iblk mI c 2 t)
      (2048 * t.val + 1024) (by omega)
      (fun i k => iblk2_apply mI c t (ix2 i k) (ix2 (⟨2048 * t.val + 1024 + i.val, by have := i.isLt; omega⟩ : Fin 16384) k) rfl rfl)
      ⟨j.val - 64, hj'⟩ b cl (by show 16 * cl.val = 2048 * t.val + 1024 + 16 * (j.val - 64); omega)

/-- What point `t` writes back is block `t` of the result. -/
theorem flushed_eq (c : Dev nD) (t : Fin cfg0.N) :
    (dats mI 0 c).flushed 3 t = ((cfg0.win 3).blk t).view.read (Elt Ideal) (result mI c) := by
  have hN : t.val < 8 := lt_of_lt_of_eq t.isLt (show cfg0.N = 8 from N_0)
  have hi := (idx_facts t).2.2.2.1
  show (cfg0.win 3).cut (grid0.coords t) ((dats mI 0 c).after 3 t) = _
  rw [after3]
  funext y
  obtain ⟨j, b, rfl⟩ : ∃ (j : Fin 128) (b : Fin 2048), y = ix2 j b := ⟨y 0, y 1, eq_ix2 y⟩
  rw [View.read_apply]
  show outAt mI c t (ix2 j b) = result mI c _
  refine (block_entry mI c t j b ⟨128 * t.val + j.val, by have := j.isLt; omega⟩ rfl).trans ?_
  unfold result
  congr 1
  funext a
  apply Fin.ext
  match a with
  | ⟨0, _⟩ => show 128 * t.val + j.val = win0_3.index t 0 * 128 + 1 * j.val; rw [hi.1]; omega
  | ⟨1, _⟩ => show b.val = win0_3.index t 1 * 2048 + 1 * b.val; rw [hi.2]; omega

/-- So the result array ends holding the specification's function: the eight blocks of 128 rows tile it. -/
theorem final (c : Dev nD) : (dats mI 0 c).arrAt 3 cfg0.N = result mI c :=
  (dats mI 0 c).arrAt_eq_of_cover 3 (result mI c) (fun t _ => flushed_eq mI c t) fun i => by
    have h0 : (i 0 : Nat) < 1024 := (i 0).isLt
    have h1 : (i 1 : Nat) < 2048 := (i 1).isLt
    let t : Fin cfg0.N := ⟨(i 0 : Nat) / 128, by rw [show cfg0.N = 8 from N_0]; omega⟩
    have ht : t.val = (i 0 : Nat) / 128 := rfl
    have hi := (idx_facts t).2.2.2
    refine ⟨t, flush0_3 t, ?_⟩
    show i ∈ ((View.whole main_v0).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [hi.1.1, hi.2.1, show win0_3.size 0 = 128 from rfl]; omega
    | ⟨1, _⟩ =>
      show win0_3.index t 1 * win0_3.size 1 ≤ (i 1 : Nat) ∧ (i 1 : Nat) < win0_3.index t 1 * win0_3.size 1 + win0_3.xsize (grid0.coords t) 1
      rw [hi.1.2, hi.2.2, show win0_3.size 1 = 2048 from rfl]; omega

/-- The run, read: the result array ends at the specification's function of the argument arrays, which end as they
    began. -/
theorem run (ρ : Dev nD → PrngReg) : θ_run defs (onTc (τ := τ) (main (F := Ideal))) ⟨mI, fun _ => 0, ρ⟩ fun r => ∀ c : Dev nD,
      r.2.mem ((c.tc : Thread nD τ).loc main_v0) = result mI c
      ∧ r.2.mem ((c.tc : Thread nD τ).loc main_arg0) = mI ((c.tc : Thread nD τ).loc main_arg0)
      ∧ r.2.mem ((c.tc : Thread nD τ).loc main_arg1) = mI ((c.tc : Thread nD τ).loc main_arg1) :=
  (θ_run defs _ _).mono (fun _ h c =>
    ⟨(h c 3).trans (final mI c),
     (h c 0).trans (((dats mI 0 c).arrAt_in 0 rfl _).trans (A_eq mI c 0)),
     (h c 1).trans (((dats mI 0 c).arrAt_in 1 rfl _).trans (A_eq mI c 1))⟩) (run_main mI ρ)

end Ideal

end Cert.KernelIdeal.Hand

end
-- ==== Proof.RefImports.lean ====
/- The reference's run and its read-at-an-index lemmas, gathered under one import. -/
import proofs.«133022_g73735998537873_cont_9to1_m_286_39_alg».proof.Proof.Gen.ReferenceIdeal.Read
-- ==== Proof.ValRef.lean ====
/-
  The reference computes the specification.

  Read from the inside out. The sum of squares of query row `b` is the host's float sum from zero; its square root,
  broadcast to a column and floored at `ε` (the maximum's operands in the other order), is the row's floored norm;
  the quotient of entry `(b, k)` by that norm, broadcast along the lanes, is the normalized entry. The transposed
  normalized queries under the proxy array's `dot_general` give, at `(n, b)`, the inner product of proxy row `n` with
  normalized query `b`: the score. The reshape of the 16384 rows to 1024 classes of 16 puts row `16 c + p` at
  `(c, p)`, and the host's maximum over the 16, from `-∞`, is the specification at `(c, b)`.
-/
import proofs.«133022_g73735998537873_cont_9to1_m_286_39_alg».proof.Proof.RefImports
import proofs.«133022_g73735998537873_cont_9to1_m_286_39_alg».proof.Proof.ValSpec

noncomputable section

namespace Cert.ValRef

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.ValSpec
open scoped BigOperators

/-- The host's sum of squares of query row `b`, from zero. -/
theorem sumsq_at (x0 : (⟨S2048x512, .f32⟩ : BufTy).Contents (Elt Ideal)) (b : Fin 2048) :
    val_main_call0_v1 (F := Ideal) x0 (ix1 b) = ∑ k : Fin 512, x0 (ix2 b k) * x0 (ix2 b k) := by
  rw [val_main_call0_v1_apply, val_main_call0_cst_apply]
  show Ideal.ofBits .f32 0x00000000#32 + _ = _
  rw [Ideal.ofBits_zero_f32, zero_add]
  refine Finset.sum_congr rfl fun k _ => ?_
  have e : idx_main_call0_v1 (ix1 b) k = ix2 b k :=
    funext fun a => Fin.ext (by match a with | ⟨0, _⟩ => rfl | ⟨1, _⟩ => rfl)
  rw [val_main_call0_v0_apply, e]
  rfl

/-- Row `b` of the floored-norm column: the maximum of `ε` and the root of the sum of squares. -/
theorem norm_at (x0 : (⟨S2048x512, .f32⟩ : BufTy).Contents (Elt Ideal)) (b : Fin 2048) :
    val_main_v1 (F := Ideal) x0 (ix2 b (⟨0, Nat.one_pos⟩ : Fin 1)) = rnorm x0 b := by
  have e : idx_main_call0_v2 (ix2 b (⟨0, Nat.one_pos⟩ : Fin 1)) = ix1 b :=
    funext fun a => Fin.ext (by match a with | ⟨0, _⟩ => rfl)
  rw [val_main_v1_apply, val_main_call1_v1_apply, val_main_call1_v0_apply, val_main_cst_apply, val_main_v0_apply,
    val_main_call0_v2_apply, e, sumsq_at]
  show max (Ideal.ofBits .f32 0x2B8CBCCC#32) (Ideal.sqrt _) = _
  exact max_comm _ _

/-- The normalized entry `(b, k)`: the quotient by row `b`'s floored norm. -/
theorem quot_at (x0 : (⟨S2048x512, .f32⟩ : BufTy).Contents (Elt Ideal)) (b : Fin 2048) (k : Fin 512) :
    val_main_v3 (F := Ideal) x0 (ix2 b k) = dnorm x0 b k := by
  have e : idx_main_v2 (ix2 b k) = ix2 b (⟨0, Nat.one_pos⟩ : Fin 1) :=
    funext fun a => Fin.ext (by match a with | ⟨0, _⟩ => rfl | ⟨1, _⟩ => rfl)
  rw [val_main_v3_apply, val_main_v2_apply, e, norm_at]
  rfl

/-- The product at `(n, b)`: the score of proxy row `n` against query `b`. -/
theorem prod_at (x0 : (⟨S2048x512, .f32⟩ : BufTy).Contents (Elt Ideal)) (x1 : (⟨S16384x512, .f32⟩ : BufTy).Contents (Elt Ideal)) (n : Fin 16384) (b : Fin 2048) :
    val_main_v5 (F := Ideal) x0 x1 (ix2 n b) = score x0 x1 n b := by
  rw [val_main_v5_apply]
  unfold score
  refine Finset.sum_congr rfl fun k _ => ?_
  have el : lidx_main_v5 (ix2 n b) k = ix2 n k :=
    funext fun a => Fin.ext (by match a with | ⟨0, _⟩ => rfl | ⟨1, _⟩ => rfl)
  have er : idx_main_v4 (ridx_main_v5 (ix2 n b) k) = ix2 b k :=
    funext fun a => Fin.ext (by match a with | ⟨0, _⟩ => rfl | ⟨1, _⟩ => rfl)
  rw [el, val_main_v4_apply, er, quot_at]

/-- The reshaped product at `(c, p, b)`: the score of proxy row `p` of class `c`. -/
theorem class_at (x0 : (⟨S2048x512, .f32⟩ : BufTy).Contents (Elt Ideal)) (x1 : (⟨S16384x512, .f32⟩ : BufTy).Contents (Elt Ideal)) (c : Fin 1024) (p : Fin 16) (b : Fin 2048) :
    val_main_v6 (F := Ideal) x0 x1 (ix3 c p b) = score x0 x1 (proxyRow c p) b := by
  have e : idx_main_v6 (ix3 c p b) = ix2 (proxyRow c p) b :=
    funext fun a => Fin.ext (by
      have hc := c.isLt; have hp := p.isLt; have hb := b.isLt
      match a with
      | ⟨0, _⟩ => show ((c.val * 16 + p.val) * 2048 + b.val) / 2048 = c.val * 16 + p.val; omega
      | ⟨1, _⟩ => show ((c.val * 16 + p.val) * 2048 + b.val) % 2048 = b.val; omega)
  rw [val_main_v6_apply, e, prod_at]

/-- The host's maximum over a class's 16 rows, from `-∞`. -/
theorem max_at (x0 : (⟨S2048x512, .f32⟩ : BufTy).Contents (Elt Ideal)) (x1 : (⟨S16384x512, .f32⟩ : BufTy).Contents (Elt Ideal)) (c : Fin 1024) (b : Fin 2048) :
    val_main_v7 (F := Ideal) x0 x1 (ix2 c b)
      = (Finset.univ : Finset (Fin 16)).fold max (Ideal.ofBits .f32 0xFF800000#32)
          fun p => val_main_v6 (F := Ideal) x0 x1 (ix3 c p b) := by
  have H : S1024x16x2048.Reduces [1] S1024x2048 := by decide
  unfold val_main_v7
  refine (Host.reduce_eq_fold_single (FloatOps.maximumf (F := Ideal) (φ := .f32)) (val_main_v6 (F := Ideal) x0 x1)
    (val_main_cst_0 (F := Ideal)) reducesTo_S1024x16x2048_S1024x2048_d1 H h_S_ (ix2 c b)).trans ?_
  have e : (val_main_v6 (F := Ideal) x0 x1 ∘ H.lift (ix2 c b)) = fun p : Fin 16 => val_main_v6 (F := Ideal) x0 x1 (ix3 c p b) :=
    funext fun p => congrArg (val_main_v6 (F := Ideal) x0 x1) (funext fun a => Fin.ext (by
      match a with | ⟨0, _⟩ => rfl | ⟨1, _⟩ => rfl | ⟨2, _⟩ => rfl))
  exact congrArg (fun f => (Finset.univ : Finset (Fin 16)).fold max (Ideal.ofBits .f32 0xFF800000#32) f) e

/-- THE REFERENCE'S RESULT, as its last stage, IS THE SPECIFICATION. -/
theorem val_main_v7_eq_G (x0 : (⟨S2048x512, .f32⟩ : BufTy).Contents (Elt Ideal)) (x1 : (⟨S16384x512, .f32⟩ : BufTy).Contents (Elt Ideal)) : val_main_v7 (F := Ideal) x0 x1 = G x0 x1 := by
  funext i
  obtain ⟨c, b, rfl⟩ : ∃ (c : Fin 1024) (b : Fin 2048), i = ix2 c b := ⟨i 0, i 1, eq_ix2 i⟩
  rw [max_at, G_ix2]
  unfold Gat
  exact Finset.fold_congr fun p _ => class_at x0 x1 c p b

/-- THE REFERENCE'S RESULT, as the term its run states, IS THE SPECIFICATION. -/
theorem ref_eq_G (x0 : (⟨S2048x512, .f32⟩ : BufTy).Contents (Elt Ideal)) (x1 : (⟨S16384x512, .f32⟩ : BufTy).Contents (Elt Ideal)) :
    Host.reduce (FloatOps.maximumf (F := Ideal) (φ := .f32)) (shapeCast _ (Host.dotGeneral (F := Ideal) (φ₁ := .f32) (φ₂ := .f32) dot_S16384x512_S512x2048_S16384x2048_1_0_0_1_n_n none (x1) (transpose S512x2048 [1, 0] (Host.divf (F := Ideal) (x0) (broadcastInDim S2048x512 ![0, 1] bcast_S2048x1_S2048x512_0_1 (maximumf (F := Ideal) (broadcastInDim S2048x1 ![] bcast_S_S2048x1 (id (constant (F := Ideal) S_ .f32 0x2B8CBCCC#32))) (Host.sqrt (F := Ideal) (broadcastInDim S2048x1 ![0] bcast_S2048_S2048x1_0 (Host.reduceAdd (F := Ideal) (mulf (F := Ideal) (x0) (x0)) (constant (F := Ideal) S_ .f32 0x00000000#32) reducesTo_S2048x512_S2048_d1 h_S_)))))) transposes_S2048x512_S512x2048_1_0)) shapeCasts_S16384x2048_S1024x16x2048) (constant (F := Ideal) S_ .f32 0xFF800000#32) reducesTo_S1024x16x2048_S1024x2048_d1 h_S_
      = G x0 x1 :=
  (val_main_v7_eq (F := Ideal) x0 x1).trans (val_main_v7_eq_G x0 x1)

end Cert.ValRef

end
-- ==== Proof.lean ====
/-
  The five claims. Kernel: for each of 8 tiles of 2048 proxy rows, the per-class maxima (16 consecutive rows per
  class) of the products of the proxy rows with the row-normalized queries, the normalized queries computed once at
  the first tile and kept in a scratch buffer. Reference: the same maxima from one product of the whole proxy bank
  with the transposed normalized queries.

  Frames (word-level and ideal kernel): the pipeline's launch with the proxy bank's share dealt between the two
  windows that read it, the body run symbolically in its two cases (first tile / later tiles), the scratch carried in
  the region invariant. Frame of the reference: its run with the result dropped.

  Values at the ideal instance: each written-back block is the block of ONE function of the two arguments — class
  `c`, query `b` ↦ max over the 16 proxy rows of class `c` of the inner product with query `b` divided by its floored
  norm — because a query entry times the reciprocal of the floored norm is the entry divided by it (the floor is
  positive, so the norm is never zero), a product into a zero accumulator is the plain sum, and regrouping rows
  `16 r + p` of a tile as class `r`, proxy `p` matches the reference's regrouping of the whole bank. The reference's
  result is read one operation at a time to the same function. No rewrite was made by the idealization, so its
  soundness claim is trivial.
-/
import proofs.«133022_g73735998537873_cont_9to1_m_286_39_alg».proof.Defs
import proofs.«133022_g73735998537873_cont_9to1_m_286_39_alg».proof.Proof.Gen.Kernel
import proofs.«133022_g73735998537873_cont_9to1_m_286_39_alg».proof.Proof.Gen.KernelIdeal
import proofs.«133022_g73735998537873_cont_9to1_m_286_39_alg».proof.Proof.Gen.ReferenceIdeal
import proofs.«133022_g73735998537873_cont_9to1_m_286_39_alg».proof.Proof.Gen.Pre_finite_inputs
import proofs.«133022_g73735998537873_cont_9to1_m_286_39_alg».proof.Proof.KBLaunch
import proofs.«133022_g73735998537873_cont_9to1_m_286_39_alg».proof.Proof.KIFinal
import proofs.«133022_g73735998537873_cont_9to1_m_286_39_alg».proof.Proof.ValRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the specification's function of the arguments, and the arguments
    agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ValRef.ref_eq_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
